-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S10000x128 : Shape := ⟨2, ![10000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 122
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result named.

  @main is ten segments: three stretches of host operations around two matmul regions. The generated frame
  certificate walks them with the contents of every unscoped buffer known at each boundary (`W0` … `W10`: a
  stretch applies its operations, a region replaces its arrays by what its write-backs leave), and keeps of the
  last boundary only that the six arguments are as launched. Here the same walk is read once more at the result
  buffer: after every weakly fair execution the result `main_v87` holds the last boundary's contents `W10` at
  that buffer. What those contents are, as a function of the arguments, is the business of the modules that
  import this one.
-/
import proofs.«133812_j13700945674596_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched: the segments' launch, the last thread state (every
    unscoped buffer at `W10`) read against the final state, the result buffer being one of the unscoped ones. -/
theorem run : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Whole

end
-- ==== Proof.MatmulBlocks.lean ====
/-
  The two matmul regions, each read as ONE whole-array product.

  A region runs its body at ten grid points. At point `t` the body loads rows `10000·t … 10000·t + 9999` of its left
  array and the whole right array, multiplies them into a zero accumulator (rounding the operands to bf16 first, which
  on the extended reals changes nothing) and stores the block; the pipeline writes that block back over the same rows of
  the output array. Entry `(r, j)` of a block is therefore `∑ k, left (10000·t + r, k) · right (k, j)`, which is entry
  `(10000·t + r, j)` of the product of the two whole arrays; the ten blocks tile the output, so after the region the
  output array IS the reference's `dot_general` of the two arrays as the region found them. Everything is stated at the
  contents `V` the region is entered with, whatever they are.
-/
import proofs.«133812_j13700945674596_1_alg».proof.Proof.Gen.KernelIdeal.Frame
import proofs.«133812_j13700945674596_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The reference's two products at an index -/

/-- The reference's `dot_general` of these shapes: the left operand's index at the output index `i` and the contraction
    index `k` (row `i 0`, column `k`), and the right operand's (row `k`, column `i 1`). -/
abbrev rl0 (i : Cert.ReferenceIdeal.S100000x128.Idx) (k : Fin 128) : Cert.ReferenceIdeal.S100000x128.Idx := fun a => match a with
  | ⟨0, _⟩ => ⟨(i 0).val, (i 0).isLt⟩
  | ⟨1, _⟩ => ⟨k.val, k.isLt⟩
abbrev rr0 (i : Cert.ReferenceIdeal.S100000x128.Idx) (k : Fin 128) : Cert.ReferenceIdeal.S128x128.Idx := fun a => match a with
  | ⟨0, _⟩ => ⟨k.val, k.isLt⟩
  | ⟨1, _⟩ => ⟨(i 1).val, (i 1).isLt⟩
theorem rlhs0_0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem rlhs0_1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rrhs0_0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rrhs0_1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl
/-- At an index it is the sum over the contracted axis of the products. -/
theorem rdot0_apply (A : FVec Ideal Cert.ReferenceIdeal.S100000x128 .f32) (B : FVec Ideal Cert.ReferenceIdeal.S128x128 .f32) (i : Cert.ReferenceIdeal.S100000x128.Idx) :
    Host.dotGeneral (F := Ideal) (φ₁ := .f32) (φ₂ := .f32) Cert.ReferenceIdeal.dot_S100000x128_S128x128_S100000x128_1_0_0_1_n_n none A B i = ∑ k : Fin 128, A (rl0 i k) * B (rr0 i k) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = rl0 i k := funext fun a => Fin.ext (by
    match a with
    | ⟨0, _⟩ => exact rlhs0_0 _ _
    | ⟨1, _⟩ => exact (rlhs0_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = rr0 i k := funext fun a => Fin.ext (by
    match a with
    | ⟨0, _⟩ => exact (rrhs0_0 _ _).trans hk
    | ⟨1, _⟩ => exact rrhs0_1 _ _)
  rw [el, er]

/-- The reference's `dot_general` of these shapes: the left operand's index at the output index `i` and the contraction
    index `k` (row `i 0`, column `k`), and the right operand's (row `k`, column `i 1`). -/
abbrev rl1 (i : Cert.ReferenceIdeal.S100000x64.Idx) (k : Fin 128) : Cert.ReferenceIdeal.S100000x128.Idx := fun a => match a with
  | ⟨0, _⟩ => ⟨(i 0).val, (i 0).isLt⟩
  | ⟨1, _⟩ => ⟨k.val, k.isLt⟩
abbrev rr1 (i : Cert.ReferenceIdeal.S100000x64.Idx) (k : Fin 128) : Cert.ReferenceIdeal.S128x64.Idx := fun a => match a with
  | ⟨0, _⟩ => ⟨k.val, k.isLt⟩
  | ⟨1, _⟩ => ⟨(i 1).val, (i 1).isLt⟩
theorem rlhs1_0 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem rlhs1_1 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rrhs1_0 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rrhs1_1 (i : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl
/-- At an index it is the sum over the contracted axis of the products. -/
theorem rdot1_apply (A : FVec Ideal Cert.ReferenceIdeal.S100000x128 .f32) (B : FVec Ideal Cert.ReferenceIdeal.S128x64 .f32) (i : Cert.ReferenceIdeal.S100000x64.Idx) :
    Host.dotGeneral (F := Ideal) (φ₁ := .f32) (φ₂ := .f32) Cert.ReferenceIdeal.dot_S100000x128_S128x64_S100000x64_1_0_0_1_n_n none A B i = ∑ k : Fin 128, A (rl1 i k) * B (rr1 i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = rl1 i k := funext fun a => Fin.ext (by
    match a with
    | ⟨0, _⟩ => exact rlhs1_0 _ _
    | ⟨1, _⟩ => exact (rlhs1_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = rr1 i k := funext fun a => Fin.ext (by
    match a with
    | ⟨0, _⟩ => exact (rrhs1_0 _ _).trans hk
    | ⟨1, _⟩ => exact rrhs1_1 _ _)
  rw [el, er]

variable (V : (c : Dev nD) → (b : Ref sig .tc) → Buf (Elt Ideal) ((c : Thread nD τ).loc b))

/-! ## Region 0: `[100000, 128] × [128, 128]`, ten row blocks of 10000 -/

/-- The left operand's index at the output index `j` of a block and the contraction index `k`: row `j 0`, column `k`. -/
abbrev lj0 (j : S10000x128.Idx) (k : Fin 128) : S10000x128.Idx := fun a => match a with
  | ⟨0, _⟩ => ⟨(j 0).val, (j 0).isLt⟩
  | ⟨1, _⟩ => ⟨k.val, k.isLt⟩
/-- The right operand's: row `k`, column `j 1`. -/
abbrev rj0 (j : S10000x128.Idx) (k : Fin 128) : S128x128.Idx := fun a => match a with
  | ⟨0, _⟩ => ⟨k.val, k.isLt⟩
  | ⟨1, _⟩ => ⟨(j 1).val, (j 1).isLt⟩

theorem lhs0_0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs0_1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhs0_0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhs0_1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's one stored value at an index of the block: rounding to bf16 is the identity on the extended reals and the
    accumulator is zero, so the entry is the plain sum over the contracted axis of the products of the two loaded blocks. -/
theorem pay0_apply (x0 : Vec Ideal S10000x128 .f32) (x1 : Vec Ideal S128x128 .f32) (j : S10000x128.Idx) :
    k0_pay1 (F := Ideal) x0 x1 j = ∑ k : Fin 128, x0 (lj0 j k) * x1 (rj0 j k) := by
  unfold k0_pay1
  refine (Ideal.matmul_constant_zero_apply dot_S10000x128_S128x128_S10000x128_1_0_0_1_n_n none _ _ j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = lj0 j k := funext fun a => Fin.ext (by
    match a with
    | ⟨0, _⟩ => exact lhs0_0 _ _
    | ⟨1, _⟩ => exact (lhs0_1 _ _).trans hk)
  have er : dot_S10000x128_S128x128_S10000x128_1_0_0_1_n_n.rhsIdx j ((ValueIdx.contrEquiv1 dot_S10000x128_S128x128_S10000x128_1_0_0_1_n_n 128 rfl rfl).symm k) = rj0 j k := funext fun a => Fin.ext (by
    match a with
    | ⟨0, _⟩ => exact (rhs0_0 _ _).trans hk
    | ⟨1, _⟩ => exact rhs0_1 _ _)
  show x0 (dot_S10000x128_S128x128_S10000x128_1_0_0_1_n_n.lhsIdx j _) * x1 (dot_S10000x128_S128x128_S10000x128_1_0_0_1_n_n.rhsIdx j _) = _
  rw [el, er]

/-- The three index maps over the grid: the left operand's block moves with the output's down the rows, the right operand
    is one whole block, and nothing moves along the columns. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the whole product of the two arrays as the region finds them: row `r` of
    block `t` is row `10000·t + r` of the left array, and the right array is read whole. -/
theorem flushed0_eq (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext j
  refine (pay0_apply (iblk0 V c 0 t) (iblk0 V c 1 t) j).trans ?_
  refine Eq.trans ?_ (rdot0_apply (V c main_arg0 : FVec Ideal S100000x128 .f32) (V c main_arg2 : FVec Ideal S128x128 .f32) (((cfg0.win 2).blk t).view.emb j)).symm
  refine Finset.sum_congr rfl fun k _ => ?_
  have h0 : ((cfg0.win 0).blk t).view.emb (lj0 j k) = rl0 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (rj0 j k) = rr0 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congrArg₂ (· * ·) ?_ ?_
  · show V c main_arg0 (((cfg0.win 0).blk t).view.emb (lj0 j k)) = V c main_arg0 (rl0 (((cfg0.win 2).blk t).view.emb j) k)
    rw [h0]
  · show V c main_arg2 (((cfg0.win 1).blk t).view.emb (rj0 j k)) = V c main_arg2 (rr0 (((cfg0.win 2).blk t).view.emb j) k)
    rw [h1]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v7).slice (win0_2.rect t)).set ↔ _
  rw [View.set_slice_whole, Rect.mem_set_unit]
  exact Iff.rfl

/-- The ten blocks tile the output array: row `r` lies in the block of the point whose row-block index is `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY after the region: the whole product of the two input arrays as the region finds them. -/
theorem final0 (c : Dev nD) :
    (dat0 V c).arrAt 2 cfg0.N = Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32) :=
  (dat0 V c).arrAt_eq_of_cover 2 _ (fun t _ => flushed0_eq V c t) (cover0)

/-! ## Region 1: `[100000, 128] × [128, 64]`, ten row blocks of 10000 -/

/-- The left operand's index at the output index `j` of a block and the contraction index `k`: row `j 0`, column `k`. -/
abbrev lj1 (j : S10000x64.Idx) (k : Fin 128) : S10000x128.Idx := fun a => match a with
  | ⟨0, _⟩ => ⟨(j 0).val, (j 0).isLt⟩
  | ⟨1, _⟩ => ⟨k.val, k.isLt⟩
/-- The right operand's: row `k`, column `j 1`. -/
abbrev rj1 (j : S10000x64.Idx) (k : Fin 128) : S128x64.Idx := fun a => match a with
  | ⟨0, _⟩ => ⟨k.val, k.isLt⟩
  | ⟨1, _⟩ => ⟨(j 1).val, (j 1).isLt⟩

theorem lhs1_0 (j : S10000x64.Idx) (q : dot_S10000x128_S128x64_S10000x64_1_0_0_1_n_n.contr.Idx) : (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_1 (j : S10000x64.Idx) (q : dot_S10000x128_S128x64_S10000x64_1_0_0_1_n_n.contr.Idx) : (dot_S10000x128_S128x64_S10000x64_1_0_0_1_n_n.lhsIdx j q 1).val = (q ⟨0, by decide⟩).val :=
  dot_S10000x128_S128x64_S10000x64_1_0_0_1_n_n.lhsIdx_val_of_single rfl j q
theorem rhs1_0 (j : S10000x64.Idx) (q : dot_S10000x128_S128x64_S10000x64_1_0_0_1_n_n.contr.Idx) : (dot_S10000x128_S128x64_S10000x64_1_0_0_1_n_n.rhsIdx j q 0).val = (q ⟨0, by decide⟩).val :=
  dot_S10000x128_S128x64_S10000x64_1_0_0_1_n_n.rhsIdx_val_of_single rfl j q
theorem rhs1_1 (j : S10000x64.Idx) (q : dot_S10000x128_S128x64_S10000x64_1_0_0_1_n_n.contr.Idx) : (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's one stored value at an index of the block: rounding to bf16 is the identity on the extended reals and the
    accumulator is zero, so the entry is the plain sum over the contracted axis of the products of the two loaded blocks. -/
theorem pay1_apply (x0 : Vec Ideal S10000x128 .f32) (x1 : Vec Ideal S128x64 .f32) (j : S10000x64.Idx) :
    k1_pay1 (F := Ideal) x0 x1 j = ∑ k : Fin 128, x0 (lj1 j k) * x1 (rj1 j k) := by
  unfold k1_pay1
  rw [shapeCast_self]
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = lj1 j k := funext fun a => Fin.ext (by
    match a with
    | ⟨0, _⟩ => exact lhs1_0 _ _
    | ⟨1, _⟩ => exact (lhs1_1 _ _).trans hk)
  have er : dot_S10000x128_S128x64_S10000x64_1_0_0_1_n_n.rhsIdx j ((ValueIdx.contrEquiv1 dot_S10000x128_S128x64_S10000x64_1_0_0_1_n_n 128 rfl rfl).symm k) = rj1 j k := funext fun a => Fin.ext (by
    match a with
    | ⟨0, _⟩ => exact (rhs1_0 _ _).trans hk
    | ⟨1, _⟩ => exact rhs1_1 _ _)
  show x0 (dot_S10000x128_S128x64_S10000x64_1_0_0_1_n_n.lhsIdx j _) * x1 (dot_S10000x128_S128x64_S10000x64_1_0_0_1_n_n.rhsIdx j _) = _
  rw [el, er]

/-- The three index maps over the grid: the left operand's block moves with the output's down the rows, the right operand
    is one whole block, and nothing moves along the columns. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some grid point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- WHAT POINT `t` WRITES BACK is block `t` of the whole product of the two arrays as the region finds them: row `r` of
    block `t` is row `10000·t + r` of the left array, and the right array is read whole. -/
theorem flushed1_eq (c : Dev nD) (t : Fin cfg1.N) :
    (dat1 V c).flushed 2 t = ((cfg1.win 2).blk t).view.read (Elt Ideal)
      (Host.dotGeneral (F := Ideal) (φ₁ := .f32) (φ₂ := .f32) Cert.ReferenceIdeal.dot_S100000x128_S128x64_S100000x64_1_0_0_1_n_n none (V c main_v47 : FVec Ideal S100000x128 .f32) (V c main_arg4 : FVec Ideal S128x64 .f32)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4, e5⟩ := idx_facts1 t
  funext j
  refine (pay1_apply (iblk1 V c 0 t) (iblk1 V c 1 t) j).trans ?_
  refine Eq.trans ?_ (rdot1_apply (V c main_v47 : FVec Ideal S100000x128 .f32) (V c main_arg4 : FVec Ideal S128x64 .f32) (((cfg1.win 2).blk t).view.emb j)).symm
  refine Finset.sum_congr rfl fun k _ => ?_
  have h0 : ((cfg1.win 0).blk t).view.emb (lj1 j k) = rl1 (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ((cfg1.win 1).blk t).view.emb (rj1 j k) = rr1 (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  refine congrArg₂ (· * ·) ?_ ?_
  · show V c main_v47 (((cfg1.win 0).blk t).view.emb (lj1 j k)) = V c main_v47 (rl1 (((cfg1.win 2).blk t).view.emb j) k)
    rw [h0]
  · show V c main_arg4 (((cfg1.win 1).blk t).view.emb (rj1 j k)) = V c main_arg4 (rr1 (((cfg1.win 2).blk t).view.emb j) k)
    rw [h1]

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- The ten blocks tile the output array: row `r` lies in the block of the point whose row-block index is `r / 10000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY after the region: the whole product of the two input arrays as the region finds them. -/
theorem final1 (c : Dev nD) :
    (dat1 V c).arrAt 2 cfg1.N = Host.dotGeneral (F := Ideal) (φ₁ := .f32) (φ₂ := .f32) Cert.ReferenceIdeal.dot_S100000x128_S128x64_S100000x64_1_0_0_1_n_n none (V c main_v47 : FVec Ideal S100000x128 .f32) (V c main_arg4 : FVec Ideal S128x64 .f32) :=
  (dat1 V c).arrAt_eq_of_cover 2 _ (fun t _ => flushed1_eq V c t) (cover1)

end Cert.KernelIdeal.Blocks

end
-- ==== Proof.Stages.lean ====
/-
  The two programs, boundary by boundary.

  Both programs are the same straight line of host operations — the two edge lists with their self-loops, then per layer
  the degrees, their inverse square roots, the gather of the projected rows, the scaling, the scatter-add, the bias, and
  between the layers the ReLU — except that where the reference has a `dot_general` the kernel launches a matmul region.
  So the buffer contents of the two are compared at five boundaries: after the edge lists, after the first product,
  after the first layer, after the second product, and at the return. At each boundary the buffers that later
  operations still read hold the same values in both programs: a stretch of host operations applies the same functions
  to equal operands, and a region leaves in its output array exactly the reference's product (the module on the matmul
  blocks), every other buffer being left alone.
-/
import proofs.«133812_j13700945674596_1_alg».proof.Proof.Gen.KernelIdeal.Frame
import proofs.«133812_j13700945674596_1_alg».proof.Proof.RefRun
import proofs.«133812_j13700945674596_1_alg».proof.Proof.MatmulBlocks
import Idealize.ShloMosaic.Lib.StableHlo.Run
import Idealize.ShloMosaic.PureOps.Ideal

set_option maxRecDepth 16384

noncomputable section

namespace Cert.Proof.Stages

open Idealize.ShloMosaic Idealize.ShloMosaic.TcCoe Idealize.SL.Sem Idealize.ShloMosaic.StableHlo

local notation "VK" => Valuation Cert.KernelIdeal.τ Cert.KernelIdeal.sig (Elt Ideal)
local notation "VR" => Valuation Cert.ReferenceIdeal.τ Cert.ReferenceIdeal.sig (Elt Ideal)

/-! ## A line of operations run in two parts -/

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

theorem after_take_drop {τ : Topo} {sig : RefSig} {Val : EltTy → Type} (n : Nat) (l : List (HloOp τ sig Val)) (V : Valuation τ sig Val) :
    after l V = after (l.drop n) (after (l.take n) V) := by
  rw [← after_append, List.take_append_drop]

/-- The reference's operations in five parts: the seven that build the edge lists, the first product, the 55 of the first
    layer, the second product, the 52 of the second layer. -/
abbrev rA : List (HloOp Cert.ReferenceIdeal.τ Cert.ReferenceIdeal.sig (Elt Ideal)) := (Cert.ReferenceIdeal.ValueP.ops (F := Ideal)).take 7
abbrev r7 : List (HloOp Cert.ReferenceIdeal.τ Cert.ReferenceIdeal.sig (Elt Ideal)) := ((Cert.ReferenceIdeal.ValueP.ops (F := Ideal)).drop 7).take 1
abbrev rB : List (HloOp Cert.ReferenceIdeal.τ Cert.ReferenceIdeal.sig (Elt Ideal)) := (((Cert.ReferenceIdeal.ValueP.ops (F := Ideal)).drop 7).drop 1).take 55
abbrev r48 : List (HloOp Cert.ReferenceIdeal.τ Cert.ReferenceIdeal.sig (Elt Ideal)) := ((((Cert.ReferenceIdeal.ValueP.ops (F := Ideal)).drop 7).drop 1).drop 55).take 1
abbrev rC : List (HloOp Cert.ReferenceIdeal.τ Cert.ReferenceIdeal.sig (Elt Ideal)) := ((((Cert.ReferenceIdeal.ValueP.ops (F := Ideal)).drop 7).drop 1).drop 55).drop 1

theorem ref_split (V : VR) :
    after (Cert.ReferenceIdeal.ValueP.ops (F := Ideal)) V = after rC (after r48 (after rB (after r7 (after rA V)))) :=
  (after_take_drop 7 _ V).trans ((after_take_drop 1 _ _).trans ((after_take_drop 55 _ _).trans (after_take_drop 1 _ _)))

/-! ## The edge lists -/

/-- The source list (the first row of the edge array, then the self-loops) is the same function of the edge array. -/
theorem stageA_v3 (Vk : VK) (Vr : VR) (h1 : Vk (Proc.devRef .tc Cert.KernelIdeal.main_arg1) = Vr (Proc.devRef .tc Cert.ReferenceIdeal.main_arg1)) :
    after Cert.KernelIdeal.Gen.hostOps0 Vk (Proc.devRef .tc Cert.KernelIdeal.main_v3) = after rA Vr (Proc.devRef .tc Cert.ReferenceIdeal.main_v3) := by
  simp only [Cert.KernelIdeal.Gen.hostOps0, rA, Cert.ReferenceIdeal.ValueP.ops, List.take_succ_cons, List.take_zero]
  after_results
  rw [h1]
  rfl

/-- The target list (the second row, then the self-loops) likewise. -/
theorem stageA_v6 (Vk : VK) (Vr : VR) (h1 : Vk (Proc.devRef .tc Cert.KernelIdeal.main_arg1) = Vr (Proc.devRef .tc Cert.ReferenceIdeal.main_arg1)) :
    after Cert.KernelIdeal.Gen.hostOps0 Vk (Proc.devRef .tc Cert.KernelIdeal.main_v6) = after rA Vr (Proc.devRef .tc Cert.ReferenceIdeal.main_v6) := by
  simp only [Cert.KernelIdeal.Gen.hostOps0, rA, Cert.ReferenceIdeal.ValueP.ops, List.take_succ_cons, List.take_zero]
  after_results
  rw [h1]
  rfl

/-- The edge-list operations write none of the argument buffers. -/
theorem keepA_K_arg0 (Vk : VK) : after Cert.KernelIdeal.Gen.hostOps0 Vk (Proc.devRef .tc Cert.KernelIdeal.main_arg0) = Vk (Proc.devRef .tc Cert.KernelIdeal.main_arg0) := by
  simp only [Cert.KernelIdeal.Gen.hostOps0]
  after_results_simp
theorem keepA_K_arg2 (Vk : VK) : after Cert.KernelIdeal.Gen.hostOps0 Vk (Proc.devRef .tc Cert.KernelIdeal.main_arg2) = Vk (Proc.devRef .tc Cert.KernelIdeal.main_arg2) := by
  simp only [Cert.KernelIdeal.Gen.hostOps0]
  after_results_simp
theorem keepA_K_arg3 (Vk : VK) : after Cert.KernelIdeal.Gen.hostOps0 Vk (Proc.devRef .tc Cert.KernelIdeal.main_arg3) = Vk (Proc.devRef .tc Cert.KernelIdeal.main_arg3) := by
  simp only [Cert.KernelIdeal.Gen.hostOps0]
  after_results_simp
theorem keepA_K_arg4 (Vk : VK) : after Cert.KernelIdeal.Gen.hostOps0 Vk (Proc.devRef .tc Cert.KernelIdeal.main_arg4) = Vk (Proc.devRef .tc Cert.KernelIdeal.main_arg4) := by
  simp only [Cert.KernelIdeal.Gen.hostOps0]
  after_results_simp
theorem keepA_K_arg5 (Vk : VK) : after Cert.KernelIdeal.Gen.hostOps0 Vk (Proc.devRef .tc Cert.KernelIdeal.main_arg5) = Vk (Proc.devRef .tc Cert.KernelIdeal.main_arg5) := by
  simp only [Cert.KernelIdeal.Gen.hostOps0]
  after_results_simp
theorem keepA_R_arg0 (Vr : VR) : after rA Vr (Proc.devRef .tc Cert.ReferenceIdeal.main_arg0) = Vr (Proc.devRef .tc Cert.ReferenceIdeal.main_arg0) := by
  simp only [rA, Cert.ReferenceIdeal.ValueP.ops, List.drop_succ_cons, List.drop_zero, List.take_succ_cons, List.take_zero]
  after_results_simp
theorem keepA_R_arg2 (Vr : VR) : after rA Vr (Proc.devRef .tc Cert.ReferenceIdeal.main_arg2) = Vr (Proc.devRef .tc Cert.ReferenceIdeal.main_arg2) := by
  simp only [rA, Cert.ReferenceIdeal.ValueP.ops, List.drop_succ_cons, List.drop_zero, List.take_succ_cons, List.take_zero]
  after_results_simp
theorem keepA_R_arg3 (Vr : VR) : after rA Vr (Proc.devRef .tc Cert.ReferenceIdeal.main_arg3) = Vr (Proc.devRef .tc Cert.ReferenceIdeal.main_arg3) := by
  simp only [rA, Cert.ReferenceIdeal.ValueP.ops, List.drop_succ_cons, List.drop_zero, List.take_succ_cons, List.take_zero]
  after_results_simp
theorem keepA_R_arg4 (Vr : VR) : after rA Vr (Proc.devRef .tc Cert.ReferenceIdeal.main_arg4) = Vr (Proc.devRef .tc Cert.ReferenceIdeal.main_arg4) := by
  simp only [rA, Cert.ReferenceIdeal.ValueP.ops, List.drop_succ_cons, List.drop_zero, List.take_succ_cons, List.take_zero]
  after_results_simp
theorem keepA_R_arg5 (Vr : VR) : after rA Vr (Proc.devRef .tc Cert.ReferenceIdeal.main_arg5) = Vr (Proc.devRef .tc Cert.ReferenceIdeal.main_arg5) := by
  simp only [rA, Cert.ReferenceIdeal.ValueP.ops, List.drop_succ_cons, List.drop_zero, List.take_succ_cons, List.take_zero]
  after_results_simp

/-! ## The first product -/

/-- The reference's first product, as its one operation leaves it. -/
theorem ref_v7 (Vr : VR) : after r7 Vr (Proc.devRef .tc Cert.ReferenceIdeal.main_v7)
    = Host.dotGeneral (F := Ideal) (φ₁ := .f32) (φ₂ := .f32) Cert.ReferenceIdeal.dot_S100000x128_S128x128_S100000x128_1_0_0_1_n_n none (Vr (Proc.devRef .tc Cert.ReferenceIdeal.main_arg0)) (Vr (Proc.devRef .tc Cert.ReferenceIdeal.main_arg2)) := by
  simp only [r7, Cert.ReferenceIdeal.ValueP.ops, List.drop_succ_cons, List.drop_zero, List.take_succ_cons, List.take_zero]
  after_results
theorem keep7_R_v3 (Vr : VR) : after r7 Vr (Proc.devRef .tc Cert.ReferenceIdeal.main_v3) = Vr (Proc.devRef .tc Cert.ReferenceIdeal.main_v3) := by
  simp only [r7, Cert.ReferenceIdeal.ValueP.ops, List.drop_succ_cons, List.drop_zero, List.take_succ_cons, List.take_zero]
  after_results_simp
theorem keep7_R_v6 (Vr : VR) : after r7 Vr (Proc.devRef .tc Cert.ReferenceIdeal.main_v6) = Vr (Proc.devRef .tc Cert.ReferenceIdeal.main_v6) := by
  simp only [r7, Cert.ReferenceIdeal.ValueP.ops, List.drop_succ_cons, List.drop_zero, List.take_succ_cons, List.take_zero]
  after_results_simp
theorem keep7_R_arg3 (Vr : VR) : after r7 Vr (Proc.devRef .tc Cert.ReferenceIdeal.main_arg3) = Vr (Proc.devRef .tc Cert.ReferenceIdeal.main_arg3) := by
  simp only [r7, Cert.ReferenceIdeal.ValueP.ops, List.drop_succ_cons, List.drop_zero, List.take_succ_cons, List.take_zero]
  after_results_simp
theorem keep7_R_arg4 (Vr : VR) : after r7 Vr (Proc.devRef .tc Cert.ReferenceIdeal.main_arg4) = Vr (Proc.devRef .tc Cert.ReferenceIdeal.main_arg4) := by
  simp only [r7, Cert.ReferenceIdeal.ValueP.ops, List.drop_succ_cons, List.drop_zero, List.take_succ_cons, List.take_zero]
  after_results_simp
theorem keep7_R_arg5 (Vr : VR) : after r7 Vr (Proc.devRef .tc Cert.ReferenceIdeal.main_arg5) = Vr (Proc.devRef .tc Cert.ReferenceIdeal.main_arg5) := by
  simp only [r7, Cert.ReferenceIdeal.ValueP.ops, List.drop_succ_cons, List.drop_zero, List.take_succ_cons, List.take_zero]
  after_results_simp

/-! ## The first layer: degrees, normalisation, gather, scale, scatter-add, bias, ReLU -/

set_option maxHeartbeats 16000000 in
/-- The first layer's 55 operations are the same functions in both programs: equal projected rows, edge lists and bias in,
    equal activations out. -/
theorem stageB_v47 (Vk : VK) (Vr : VR) (h7 : Vk (Proc.devRef .tc Cert.KernelIdeal.main_v7) = Vr (Proc.devRef .tc Cert.ReferenceIdeal.main_v7)) (h3 : Vk (Proc.devRef .tc Cert.KernelIdeal.main_v3) = Vr (Proc.devRef .tc Cert.ReferenceIdeal.main_v3))
    (h6 : Vk (Proc.devRef .tc Cert.KernelIdeal.main_v6) = Vr (Proc.devRef .tc Cert.ReferenceIdeal.main_v6)) (hb : Vk (Proc.devRef .tc Cert.KernelIdeal.main_arg3) = Vr (Proc.devRef .tc Cert.ReferenceIdeal.main_arg3)) :
    after Cert.KernelIdeal.Gen.hostOps1_3 (after Cert.KernelIdeal.Gen.hostOps1_2 (after Cert.KernelIdeal.Gen.hostOps1_1 (after Cert.KernelIdeal.Gen.hostOps1 Vk))) (Proc.devRef .tc Cert.KernelIdeal.main_v47) = after rB Vr (Proc.devRef .tc Cert.ReferenceIdeal.main_v47) := by
  simp only [Cert.KernelIdeal.Gen.hostOps1, Cert.KernelIdeal.Gen.hostOps1_1, Cert.KernelIdeal.Gen.hostOps1_2, Cert.KernelIdeal.Gen.hostOps1_3, rB, Cert.ReferenceIdeal.ValueP.ops, List.drop_succ_cons, List.drop_zero, List.take_succ_cons, List.take_zero]
  after_results_simp
  rw [h7, h3, h6, hb]
  rfl
theorem keepB_K_v3 (Vk : VK) : after Cert.KernelIdeal.Gen.hostOps1_3 (after Cert.KernelIdeal.Gen.hostOps1_2 (after Cert.KernelIdeal.Gen.hostOps1_1 (after Cert.KernelIdeal.Gen.hostOps1 Vk))) (Proc.devRef .tc Cert.KernelIdeal.main_v3) = Vk (Proc.devRef .tc Cert.KernelIdeal.main_v3) := by
  simp only [Cert.KernelIdeal.Gen.hostOps1, Cert.KernelIdeal.Gen.hostOps1_1, Cert.KernelIdeal.Gen.hostOps1_2, Cert.KernelIdeal.Gen.hostOps1_3]
  after_results_simp
theorem keepB_K_v6 (Vk : VK) : after Cert.KernelIdeal.Gen.hostOps1_3 (after Cert.KernelIdeal.Gen.hostOps1_2 (after Cert.KernelIdeal.Gen.hostOps1_1 (after Cert.KernelIdeal.Gen.hostOps1 Vk))) (Proc.devRef .tc Cert.KernelIdeal.main_v6) = Vk (Proc.devRef .tc Cert.KernelIdeal.main_v6) := by
  simp only [Cert.KernelIdeal.Gen.hostOps1, Cert.KernelIdeal.Gen.hostOps1_1, Cert.KernelIdeal.Gen.hostOps1_2, Cert.KernelIdeal.Gen.hostOps1_3]
  after_results_simp
theorem keepB_K_arg4 (Vk : VK) : after Cert.KernelIdeal.Gen.hostOps1_3 (after Cert.KernelIdeal.Gen.hostOps1_2 (after Cert.KernelIdeal.Gen.hostOps1_1 (after Cert.KernelIdeal.Gen.hostOps1 Vk))) (Proc.devRef .tc Cert.KernelIdeal.main_arg4) = Vk (Proc.devRef .tc Cert.KernelIdeal.main_arg4) := by
  simp only [Cert.KernelIdeal.Gen.hostOps1, Cert.KernelIdeal.Gen.hostOps1_1, Cert.KernelIdeal.Gen.hostOps1_2, Cert.KernelIdeal.Gen.hostOps1_3]
  after_results_simp
theorem keepB_K_arg5 (Vk : VK) : after Cert.KernelIdeal.Gen.hostOps1_3 (after Cert.KernelIdeal.Gen.hostOps1_2 (after Cert.KernelIdeal.Gen.hostOps1_1 (after Cert.KernelIdeal.Gen.hostOps1 Vk))) (Proc.devRef .tc Cert.KernelIdeal.main_arg5) = Vk (Proc.devRef .tc Cert.KernelIdeal.main_arg5) := by
  simp only [Cert.KernelIdeal.Gen.hostOps1, Cert.KernelIdeal.Gen.hostOps1_1, Cert.KernelIdeal.Gen.hostOps1_2, Cert.KernelIdeal.Gen.hostOps1_3]
  after_results_simp
theorem keepB_R_v3 (Vr : VR) : after rB Vr (Proc.devRef .tc Cert.ReferenceIdeal.main_v3) = Vr (Proc.devRef .tc Cert.ReferenceIdeal.main_v3) := by
  simp only [rB, Cert.ReferenceIdeal.ValueP.ops, List.drop_succ_cons, List.drop_zero, List.take_succ_cons, List.take_zero]
  after_results_simp
theorem keepB_R_v6 (Vr : VR) : after rB Vr (Proc.devRef .tc Cert.ReferenceIdeal.main_v6) = Vr (Proc.devRef .tc Cert.ReferenceIdeal.main_v6) := by
  simp only [rB, Cert.ReferenceIdeal.ValueP.ops, List.drop_succ_cons, List.drop_zero, List.take_succ_cons, List.take_zero]
  after_results_simp
theorem keepB_R_arg4 (Vr : VR) : after rB Vr (Proc.devRef .tc Cert.ReferenceIdeal.main_arg4) = Vr (Proc.devRef .tc Cert.ReferenceIdeal.main_arg4) := by
  simp only [rB, Cert.ReferenceIdeal.ValueP.ops, List.drop_succ_cons, List.drop_zero, List.take_succ_cons, List.take_zero]
  after_results_simp
theorem keepB_R_arg5 (Vr : VR) : after rB Vr (Proc.devRef .tc Cert.ReferenceIdeal.main_arg5) = Vr (Proc.devRef .tc Cert.ReferenceIdeal.main_arg5) := by
  simp only [rB, Cert.ReferenceIdeal.ValueP.ops, List.drop_succ_cons, List.drop_zero, List.take_succ_cons, List.take_zero]
  after_results_simp

/-! ## The second product -/

theorem ref_v48 (Vr : VR) : after r48 Vr (Proc.devRef .tc Cert.ReferenceIdeal.main_v48)
    = Host.dotGeneral (F := Ideal) (φ₁ := .f32) (φ₂ := .f32) Cert.ReferenceIdeal.dot_S100000x128_S128x64_S100000x64_1_0_0_1_n_n none (Vr (Proc.devRef .tc Cert.ReferenceIdeal.main_v47)) (Vr (Proc.devRef .tc Cert.ReferenceIdeal.main_arg4)) := by
  simp only [r48, Cert.ReferenceIdeal.ValueP.ops, List.drop_succ_cons, List.drop_zero, List.take_succ_cons, List.take_zero]
  after_results
theorem keep48_R_v3 (Vr : VR) : after r48 Vr (Proc.devRef .tc Cert.ReferenceIdeal.main_v3) = Vr (Proc.devRef .tc Cert.ReferenceIdeal.main_v3) := by
  simp only [r48, Cert.ReferenceIdeal.ValueP.ops, List.drop_succ_cons, List.drop_zero, List.take_succ_cons, List.take_zero]
  after_results_simp
theorem keep48_R_v6 (Vr : VR) : after r48 Vr (Proc.devRef .tc Cert.ReferenceIdeal.main_v6) = Vr (Proc.devRef .tc Cert.ReferenceIdeal.main_v6) := by
  simp only [r48, Cert.ReferenceIdeal.ValueP.ops, List.drop_succ_cons, List.drop_zero, List.take_succ_cons, List.take_zero]
  after_results_simp
theorem keep48_R_arg5 (Vr : VR) : after r48 Vr (Proc.devRef .tc Cert.ReferenceIdeal.main_arg5) = Vr (Proc.devRef .tc Cert.ReferenceIdeal.main_arg5) := by
  simp only [r48, Cert.ReferenceIdeal.ValueP.ops, List.drop_succ_cons, List.drop_zero, List.take_succ_cons, List.take_zero]
  after_results_simp

/-! ## The second layer -/

set_option maxHeartbeats 16000000 in
/-- The second layer's 52 operations likewise: equal projected rows, edge lists and bias in, equal results out. -/
theorem stageC_v87 (Vk : VK) (Vr : VR) (h48 : Vk (Proc.devRef .tc Cert.KernelIdeal.main_v48) = Vr (Proc.devRef .tc Cert.ReferenceIdeal.main_v48)) (h3 : Vk (Proc.devRef .tc Cert.KernelIdeal.main_v3) = Vr (Proc.devRef .tc Cert.ReferenceIdeal.main_v3))
    (h6 : Vk (Proc.devRef .tc Cert.KernelIdeal.main_v6) = Vr (Proc.devRef .tc Cert.ReferenceIdeal.main_v6)) (hb : Vk (Proc.devRef .tc Cert.KernelIdeal.main_arg5) = Vr (Proc.devRef .tc Cert.ReferenceIdeal.main_arg5)) :
    after Cert.KernelIdeal.Gen.hostOps2_2 (after Cert.KernelIdeal.Gen.hostOps2_1 (after Cert.KernelIdeal.Gen.hostOps2 Vk)) (Proc.devRef .tc Cert.KernelIdeal.main_v87) = after rC Vr (Proc.devRef .tc Cert.ReferenceIdeal.main_v87) := by
  simp only [Cert.KernelIdeal.Gen.hostOps2, Cert.KernelIdeal.Gen.hostOps2_1, Cert.KernelIdeal.Gen.hostOps2_2, rC, Cert.ReferenceIdeal.ValueP.ops, List.drop_succ_cons, List.drop_zero, List.take_succ_cons, List.take_zero]
  after_results_simp
  rw [h48, h3, h6, hb]
  rfl

/-! ## The return -/

/-- From memories agreeing on the six arguments, the kernel's result buffer at its last boundary holds what the reference's
    fold leaves in its result buffer: the five boundaries in order, each buffer the later operations read carried along. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Gen.W10 m ρ c (Proc.devRef .tc Cert.KernelIdeal.main_v87) = after (Cert.ReferenceIdeal.ValueP.ops (F := Ideal)) (launchContents m' c) (Proc.devRef .tc Cert.ReferenceIdeal.main_v87) := by
  rw [ref_split]
  -- the launch contents agree on the arguments
  have a0 : Cert.KernelIdeal.Gen.W0 m ρ c (Proc.devRef .tc Cert.KernelIdeal.main_arg0) = launchContents m' c (Proc.devRef .tc Cert.ReferenceIdeal.main_arg0) := g0.symm
  have a1 : Cert.KernelIdeal.Gen.W0 m ρ c (Proc.devRef .tc Cert.KernelIdeal.main_arg1) = launchContents m' c (Proc.devRef .tc Cert.ReferenceIdeal.main_arg1) := g1.symm
  have a2 : Cert.KernelIdeal.Gen.W0 m ρ c (Proc.devRef .tc Cert.KernelIdeal.main_arg2) = launchContents m' c (Proc.devRef .tc Cert.ReferenceIdeal.main_arg2) := g2.symm
  have a3 : Cert.KernelIdeal.Gen.W0 m ρ c (Proc.devRef .tc Cert.KernelIdeal.main_arg3) = launchContents m' c (Proc.devRef .tc Cert.ReferenceIdeal.main_arg3) := g3.symm
  have a4 : Cert.KernelIdeal.Gen.W0 m ρ c (Proc.devRef .tc Cert.KernelIdeal.main_arg4) = launchContents m' c (Proc.devRef .tc Cert.ReferenceIdeal.main_arg4) := g4.symm
  have a5 : Cert.KernelIdeal.Gen.W0 m ρ c (Proc.devRef .tc Cert.KernelIdeal.main_arg5) = launchContents m' c (Proc.devRef .tc Cert.ReferenceIdeal.main_arg5) := g5.symm
  -- after the edge lists
  have e1_v3 : Cert.KernelIdeal.Gen.W1 m ρ c (Proc.devRef .tc Cert.KernelIdeal.main_v3) = (after rA (launchContents m' c)) (Proc.devRef .tc Cert.ReferenceIdeal.main_v3) := stageA_v3 _ _ a1
  have e1_v6 : Cert.KernelIdeal.Gen.W1 m ρ c (Proc.devRef .tc Cert.KernelIdeal.main_v6) = (after rA (launchContents m' c)) (Proc.devRef .tc Cert.ReferenceIdeal.main_v6) := stageA_v6 _ _ a1
  have e1_arg0 : Cert.KernelIdeal.Gen.W1 m ρ c (Proc.devRef .tc Cert.KernelIdeal.main_arg0) = (after rA (launchContents m' c)) (Proc.devRef .tc Cert.ReferenceIdeal.main_arg0) := (keepA_K_arg0 _).trans (a0.trans (keepA_R_arg0 _).symm)
  have e1_arg2 : Cert.KernelIdeal.Gen.W1 m ρ c (Proc.devRef .tc Cert.KernelIdeal.main_arg2) = (after rA (launchContents m' c)) (Proc.devRef .tc Cert.ReferenceIdeal.main_arg2) := (keepA_K_arg2 _).trans (a2.trans (keepA_R_arg2 _).symm)
  have e1_arg3 : Cert.KernelIdeal.Gen.W1 m ρ c (Proc.devRef .tc Cert.KernelIdeal.main_arg3) = (after rA (launchContents m' c)) (Proc.devRef .tc Cert.ReferenceIdeal.main_arg3) := (keepA_K_arg3 _).trans (a3.trans (keepA_R_arg3 _).symm)
  have e1_arg4 : Cert.KernelIdeal.Gen.W1 m ρ c (Proc.devRef .tc Cert.KernelIdeal.main_arg4) = (after rA (launchContents m' c)) (Proc.devRef .tc Cert.ReferenceIdeal.main_arg4) := (keepA_K_arg4 _).trans (a4.trans (keepA_R_arg4 _).symm)
  have e1_arg5 : Cert.KernelIdeal.Gen.W1 m ρ c (Proc.devRef .tc Cert.KernelIdeal.main_arg5) = (after rA (launchContents m' c)) (Proc.devRef .tc Cert.ReferenceIdeal.main_arg5) := (keepA_K_arg5 _).trans (a5.trans (keepA_R_arg5 _).symm)
  -- after the first product
  have k7 : Cert.KernelIdeal.Gen.W2 m ρ c (Proc.devRef .tc Cert.KernelIdeal.main_v7) = Host.dotGeneral (F := Ideal) (φ₁ := .f32) (φ₂ := .f32) Cert.ReferenceIdeal.dot_S100000x128_S128x128_S100000x128_1_0_0_1_n_n none (Cert.KernelIdeal.Gen.W1 m ρ c (Proc.devRef .tc Cert.KernelIdeal.main_arg0)) (Cert.KernelIdeal.Gen.W1 m ρ c (Proc.devRef .tc Cert.KernelIdeal.main_arg2)) :=
    (Cert.KernelIdeal.Gen.W2_arr m ρ c 2).trans (Cert.KernelIdeal.Blocks.final0 (Cert.KernelIdeal.Gen.V1 m ρ) c)
  have e2_v7 : Cert.KernelIdeal.Gen.W2 m ρ c (Proc.devRef .tc Cert.KernelIdeal.main_v7) = (after r7 (after rA (launchContents m' c))) (Proc.devRef .tc Cert.ReferenceIdeal.main_v7) := by
    rw [ref_v7, ← e1_arg0, ← e1_arg2]; exact k7
  have e2_v3 : Cert.KernelIdeal.Gen.W2 m ρ c (Proc.devRef .tc Cert.KernelIdeal.main_v3) = (after r7 (after rA (launchContents m' c))) (Proc.devRef .tc Cert.ReferenceIdeal.main_v3) := (Cert.KernelIdeal.Gen.W2_of_ne m ρ c Cert.KernelIdeal.main_v3 (by decide)).trans (e1_v3.trans (keep7_R_v3 _).symm)
  have e2_v6 : Cert.KernelIdeal.Gen.W2 m ρ c (Proc.devRef .tc Cert.KernelIdeal.main_v6) = (after r7 (after rA (launchContents m' c))) (Proc.devRef .tc Cert.ReferenceIdeal.main_v6) := (Cert.KernelIdeal.Gen.W2_of_ne m ρ c Cert.KernelIdeal.main_v6 (by decide)).trans (e1_v6.trans (keep7_R_v6 _).symm)
  have e2_arg3 : Cert.KernelIdeal.Gen.W2 m ρ c (Proc.devRef .tc Cert.KernelIdeal.main_arg3) = (after r7 (after rA (launchContents m' c))) (Proc.devRef .tc Cert.ReferenceIdeal.main_arg3) := (Cert.KernelIdeal.Gen.W2_of_ne m ρ c Cert.KernelIdeal.main_arg3 (by decide)).trans (e1_arg3.trans (keep7_R_arg3 _).symm)
  have e2_arg4 : Cert.KernelIdeal.Gen.W2 m ρ c (Proc.devRef .tc Cert.KernelIdeal.main_arg4) = (after r7 (after rA (launchContents m' c))) (Proc.devRef .tc Cert.ReferenceIdeal.main_arg4) := (Cert.KernelIdeal.Gen.W2_of_ne m ρ c Cert.KernelIdeal.main_arg4 (by decide)).trans (e1_arg4.trans (keep7_R_arg4 _).symm)
  have e2_arg5 : Cert.KernelIdeal.Gen.W2 m ρ c (Proc.devRef .tc Cert.KernelIdeal.main_arg5) = (after r7 (after rA (launchContents m' c))) (Proc.devRef .tc Cert.ReferenceIdeal.main_arg5) := (Cert.KernelIdeal.Gen.W2_of_ne m ρ c Cert.KernelIdeal.main_arg5 (by decide)).trans (e1_arg5.trans (keep7_R_arg5 _).symm)
  -- after the first layer
  have e6_v47 : Cert.KernelIdeal.Gen.W6 m ρ c (Proc.devRef .tc Cert.KernelIdeal.main_v47) = (after rB (after r7 (after rA (launchContents m' c)))) (Proc.devRef .tc Cert.ReferenceIdeal.main_v47) := stageB_v47 _ _ e2_v7 e2_v3 e2_v6 e2_arg3
  have e6_v3 : Cert.KernelIdeal.Gen.W6 m ρ c (Proc.devRef .tc Cert.KernelIdeal.main_v3) = (after rB (after r7 (after rA (launchContents m' c)))) (Proc.devRef .tc Cert.ReferenceIdeal.main_v3) := (keepB_K_v3 _).trans (e2_v3.trans (keepB_R_v3 _).symm)
  have e6_v6 : Cert.KernelIdeal.Gen.W6 m ρ c (Proc.devRef .tc Cert.KernelIdeal.main_v6) = (after rB (after r7 (after rA (launchContents m' c)))) (Proc.devRef .tc Cert.ReferenceIdeal.main_v6) := (keepB_K_v6 _).trans (e2_v6.trans (keepB_R_v6 _).symm)
  have e6_arg4 : Cert.KernelIdeal.Gen.W6 m ρ c (Proc.devRef .tc Cert.KernelIdeal.main_arg4) = (after rB (after r7 (after rA (launchContents m' c)))) (Proc.devRef .tc Cert.ReferenceIdeal.main_arg4) := (keepB_K_arg4 _).trans (e2_arg4.trans (keepB_R_arg4 _).symm)
  have e6_arg5 : Cert.KernelIdeal.Gen.W6 m ρ c (Proc.devRef .tc Cert.KernelIdeal.main_arg5) = (after rB (after r7 (after rA (launchContents m' c)))) (Proc.devRef .tc Cert.ReferenceIdeal.main_arg5) := (keepB_K_arg5 _).trans (e2_arg5.trans (keepB_R_arg5 _).symm)
  -- after the second product
  have k48 : Cert.KernelIdeal.Gen.W7 m ρ c (Proc.devRef .tc Cert.KernelIdeal.main_v48) = Host.dotGeneral (F := Ideal) (φ₁ := .f32) (φ₂ := .f32) Cert.ReferenceIdeal.dot_S100000x128_S128x64_S100000x64_1_0_0_1_n_n none (Cert.KernelIdeal.Gen.W6 m ρ c (Proc.devRef .tc Cert.KernelIdeal.main_v47)) (Cert.KernelIdeal.Gen.W6 m ρ c (Proc.devRef .tc Cert.KernelIdeal.main_arg4)) :=
    (Cert.KernelIdeal.Gen.W7_arr m ρ c 2).trans (Cert.KernelIdeal.Blocks.final1 (Cert.KernelIdeal.Gen.V6 m ρ) c)
  have e7_v48 : Cert.KernelIdeal.Gen.W7 m ρ c (Proc.devRef .tc Cert.KernelIdeal.main_v48) = (after r48 (after rB (after r7 (after rA (launchContents m' c))))) (Proc.devRef .tc Cert.ReferenceIdeal.main_v48) := by
    rw [ref_v48, ← e6_v47, ← e6_arg4]; exact k48
  have e7_v3 : Cert.KernelIdeal.Gen.W7 m ρ c (Proc.devRef .tc Cert.KernelIdeal.main_v3) = (after r48 (after rB (after r7 (after rA (launchContents m' c))))) (Proc.devRef .tc Cert.ReferenceIdeal.main_v3) := (Cert.KernelIdeal.Gen.W7_of_ne m ρ c Cert.KernelIdeal.main_v3 (by decide)).trans (e6_v3.trans (keep48_R_v3 _).symm)
  have e7_v6 : Cert.KernelIdeal.Gen.W7 m ρ c (Proc.devRef .tc Cert.KernelIdeal.main_v6) = (after r48 (after rB (after r7 (after rA (launchContents m' c))))) (Proc.devRef .tc Cert.ReferenceIdeal.main_v6) := (Cert.KernelIdeal.Gen.W7_of_ne m ρ c Cert.KernelIdeal.main_v6 (by decide)).trans (e6_v6.trans (keep48_R_v6 _).symm)
  have e7_arg5 : Cert.KernelIdeal.Gen.W7 m ρ c (Proc.devRef .tc Cert.KernelIdeal.main_arg5) = (after r48 (after rB (after r7 (after rA (launchContents m' c))))) (Proc.devRef .tc Cert.ReferenceIdeal.main_arg5) := (Cert.KernelIdeal.Gen.W7_of_ne m ρ c Cert.KernelIdeal.main_arg5 (by decide)).trans (e6_arg5.trans (keep48_R_arg5 _).symm)
  -- at the return
  exact stageC_v87 _ _ e7_v48 e7_v3 e7_v6 e7_arg5

end Cert.Proof.Stages

end
-- ==== Proof.lean ====
/-
  A two-layer graph convolution, kernel against reference.

  Both programs compute, for node features `x`, an edge array and two weight/bias pairs,
      h   = relu (agg (x · W1) + b1),      out = agg (h · W2) + b2,
  where `agg` appends a self-loop to every node, counts each node's in-degree `deg`, and replaces row `d` by the sum over
  the edges `(s → d)` of row `s` scaled by `deg(s)^(-1/2) · deg(d)^(-1/2)` (a gather, a scaling and a scatter-add on the
  host). The two programs differ in one place only: the reference forms `x · W1` and `h · W2` by `dot_general`; the kernel
  launches a matmul region that produces the same product in ten row blocks of 10000, rounding the operands to bf16 on the
  way in, which on the extended reals is the identity. Every entry of a product is the same finite sum of products
  `∑ k, a (r, k) · b (k, j)` on both sides, so no law of the extended reals beyond that is used and the finiteness of the
  inputs is never opened.

  The frames of the two kernel programs are the generated ones. The reference's run is a straight line of host operations
  (its run module). For the value, the kernel's run is read with the result buffer named (KernelRun), each region's
  output array is shown to be the whole product of its two input arrays (MatmulBlocks), and the two programs' buffer
  contents are compared boundary by boundary (Stages). The ideal pass rewrote nothing, so `preserves` asks nothing.
-/
import proofs.«133812_j13700945674596_1_alg».proof.Defs
import proofs.«133812_j13700945674596_1_alg».proof.Proof.Gen.Kernel
import proofs.«133812_j13700945674596_1_alg».proof.Proof.Gen.Kernel.Skeleton
import proofs.«133812_j13700945674596_1_alg».proof.Proof.Gen.Kernel.Launch
import proofs.«133812_j13700945674596_1_alg».proof.Proof.Gen.Kernel.Points
import proofs.«133812_j13700945674596_1_alg».proof.Proof.Gen.Kernel.Frame
import proofs.«133812_j13700945674596_1_alg».proof.Proof.Gen.KernelIdeal
import proofs.«133812_j13700945674596_1_alg».proof.Proof.Gen.KernelIdeal.Skeleton
import proofs.«133812_j13700945674596_1_alg».proof.Proof.Gen.KernelIdeal.Launch
import proofs.«133812_j13700945674596_1_alg».proof.Proof.Gen.KernelIdeal.Points
import proofs.«133812_j13700945674596_1_alg».proof.Proof.Gen.KernelIdeal.Frame
import proofs.«133812_j13700945674596_1_alg».proof.Proof.Gen.ReferenceIdeal
import proofs.«133812_j13700945674596_1_alg».proof.Proof.Gen.Pre_finite_inputs
import proofs.«133812_j13700945674596_1_alg».proof.Proof.KernelRun
import proofs.«133812_j13700945674596_1_alg».proof.Proof.RefRun
import proofs.«133812_j13700945674596_1_alg».proof.Proof.Stages
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization is the kernel's own text read on the extended reals: nothing was rewritten. -/
theorem preserves : Cert.preserves_Kernel_KernelIdeal := trivial

/-- From memories agreeing on the arguments both programs end with the same result: the kernel's result buffer holds its
    last boundary's contents, the reference's the fold of its operations, and the two are equal boundary by boundary. -/
theorem algebraic : Cert.algebraic_KernelIdeal_ReferenceIdeal := by
  intro m ρ m' ρ' _ hagree
  refine ⟨fun c => Cert.KernelIdeal.Gen.W10 m ρ c (Proc.devRef .tc Cert.KernelIdeal.main_v87), Cert.KernelIdeal.Whole.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5⟩ := hagree c
  exact (Cert.Proof.Stages.result_eq m ρ m' c g0 g1 g2 g3 g4 g5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
